-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg16 : FVec F S32 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg13 : FVec F S64x64 .f32) (main_arg14 : FVec F S64 .f32) (main_arg15 : FVec F S64x32 .f32) (main_arg16 : FVec F S32 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg16 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x32 .f32) (main_arg16 : FVec F S32 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x32 .f32) (main_arg16 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x32 .f32) (main_arg16 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S512x64 : Shape := ⟨2, ![512, 64]⟩
abbrev S50000x1 : Shape := ⟨2, ![50000, 1]⟩
abbrev S1x32 : Shape := ⟨2, ![1, 32]⟩
abbrev S512x32 : Shape := ⟨2, ![512, 32]⟩

abbrev nBuf : Space → Nat
  | .hbm => 75
  | .vmem => 34
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x32, .f32⟩
  | .hbm, ⟨16, _⟩ => ⟨S32, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S1x64, .f32⟩
  | .hbm, ⟨35, _⟩ => ⟨S1x64, .f32⟩
  | .hbm, ⟨36, _⟩ => ⟨S50000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S1x64, .f32⟩
  | .hbm, ⟨51, _⟩ => ⟨S1x64, .f32⟩
  | .hbm, ⟨52, _⟩ => ⟨S50000x64, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S1x64, .f32⟩
  | .hbm, ⟨67, _⟩ => ⟨S1x64, .f32⟩
  | .hbm, ⟨68, _⟩ => ⟨S50000x64, .f32⟩
  | .hbm, ⟨69, _⟩ => ⟨S_, .f32⟩
  | .hbm, ⟨70, _⟩ => ⟨S512x64, .f32⟩
  | .hbm, ⟨71, _⟩ => ⟨S50000x1, .i32⟩
  | .hbm, ⟨72, _⟩ => ⟨S512x64, .f32⟩
  | .hbm, ⟨73, _⟩ => ⟨S1x32, .f32⟩
  | .hbm, ⟨74, _⟩ => ⟨S512x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S512x64, .f32⟩
  | .local _ .vmem, ⟨31, _⟩ => ⟨S64x32, .f32⟩
  | .local _ .vmem, ⟨32, _⟩ => ⟨S1x32, .f32⟩
  | .local _ .vmem, ⟨33, _⟩ => ⟨S512x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem1_0 : DmaSem sig := 31
abbrev cc3_sem2_0 : DmaSem sig := 32
abbrev cc3_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S512x64 : S_.BroadcastsInDim S512x64 (![] : Fin 0 → Fin S512x64.rank)
  bcast_S50000_S50000x1_0 : S50000.BroadcastsInDim S50000x1 (![0] : Fin 1 → Fin S50000x1.rank)
  shapeCasts_S32_S1x32 : S32.ShapeCasts S1x32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S512x64_S50000x1_S50000x64_1_0_0_1_wf : ScatterDims.WF S512x64 S50000x1 S50000x64 [1] [0] [0] 1
  dot_S512x64_S64x32_S512x32_1_0_0_1_n_n_wf : DotDims.WF S512x64 S64x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x32.size a ≤ S512x32.size a
  hwx3_3 : ∀ i : grid3.Coords, EltTy.bits .f32 = 32 ∨ (Rect.block (s := S512x32) S512x32.size (cc3_transform_3 i) (hinb3_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v45) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S512x32.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S512x64 : Shape := ⟨2, ![512, 64]⟩
abbrev S50000x1 : Shape := ⟨2, ![50000, 1]⟩
abbrev S512x32 : Shape := ⟨2, ![512, 32]⟩
abbrev S1x32 : Shape := ⟨2, ![1, 32]⟩

abbrev nBuf : Space → Nat
  | .hbm => 113
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x32, .f32⟩
  | .hbm, ⟨16, _⟩ => ⟨S32, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S_, .f32⟩
  | .hbm, ⟨87, _⟩ => ⟨S50000x64, .f32⟩
  | .hbm, ⟨88, _⟩ => ⟨S800000x1, .i32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S50000x64, .f32⟩
  | .hbm, ⟨97, _⟩ => ⟨S50000x64, .f32⟩
  | .hbm, ⟨98, _⟩ => ⟨S50000x64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S50000x64, .f32⟩
  | .hbm, ⟨104, _⟩ => ⟨S50000x64, .f32⟩
  | .hbm, ⟨105, _⟩ => ⟨S_, .f32⟩
  | .hbm, ⟨106, _⟩ => ⟨S512x64, .f32⟩
  | .hbm, ⟨107, _⟩ => ⟨S50000x1, .i32⟩
  | .hbm, ⟨108, _⟩ => ⟨S512x64, .f32⟩
  | .hbm, ⟨109, _⟩ => ⟨S512x32, .f32⟩
  | .hbm, ⟨110, _⟩ => ⟨S1x32, .f32⟩
  | .hbm, ⟨111, _⟩ => ⟨S512x32, .f32⟩
  | .hbm, ⟨112, _⟩ => ⟨S512x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  dot_S512x64_S64x32_S512x32_1_0_0_1_n_n_wf : DotDims.WF S512x64 S64x32 S512x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

class Facts : Prop extends Facts₀ where

variable [Facts]
-- ==== Proof.KRun.lean ====
/-
  The idealized kernel program's run, with the result in the post.

  @main is eight segments: a stretch of host operations, then a pallas_call, four times over. The buffer contents
  at each boundary are a fold from the launch memory: a host stretch applies its operations, a region leaves each
  of its arrays at what its write-backs leave and every other buffer as it was. `W8` is the contents after the
  last region. Every weakly fair execution terminates without a fault in a state whose every unscoped buffer holds
  `W8`; read at the result's buffer that is the first conjunct below, and read at an argument's buffer it walks
  back through the fold to the launch contents, since no segment writes an argument.
-/
import proofs.«138408_j7481833030168_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result's buffer at the last
    boundary's contents `W8` and every argument as launched. -/
theorem run : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.KRun

end
-- ==== Proof.Spec.lean ====
/-
  The mathematics both programs compute, with no program in sight.

  One GIN layer acts on each node's row separately once the neighbour sum is known: with `z = h + agg` the row
  goes through `relu (z · wa + ba)` and then `relu (· wb + bb)`. `mlpRow` is that function of one row (a row is a
  function `Fin 64 → EReal`), `linRow` the last linear map `p · lw + lb` of one pooled row. Everything is on the
  extended reals: a product of matrices is the plain finite sum of products, the rectifier is `max · 0` with the
  zero kept as the f32 zero word on both sides.

  `dot_sum` is the one piece of index bookkeeping: for dimension numbers that contract the left operand's second
  axis with the right operand's first (a plain matrix product), the sum over the contraction index is the sum
  over `k : Fin K` of `l (r, k) * r (k, c)`.
-/
import Idealize.ShloMosaic.PureOps.Ideal
import Idealize.ShloMosaic.PureOps.Ideal.Laws
import Idealize.ShloMosaic.Lib.ValueIdx
import Idealize.ShloMosaic.Lib.Pipeline.Value

noncomputable section

namespace Cert.GinSpec

open Idealize.ShloMosaic Idealize.ShloMosaic.ValueIdx

/-- The f32 zero word as an extended real; never evaluated, the same word stands on both sides. -/
abbrev zeroW : EReal := Ideal.ofBits .f32 0x00000000#32

/-- One dense layer and the rectifier on one row: `max (x · w + b) 0` at column `c`. -/
def denseRelu {K C : Nat} (x : Fin K → EReal) (w : Fin K → Fin C → EReal) (b : Fin C → EReal) (c : Fin C) : EReal :=
  max ((∑ k : Fin K, x k * w k c) + b c) zeroW

/-- One node's row through a GIN layer's two dense layers: `relu (relu ((h + a) · wa + ba) · wb + bb)`. -/
def mlpRow (h a : Fin 64 → EReal) (wa : Fin 64 → Fin 64 → EReal) (ba : Fin 64 → EReal)
    (wb : Fin 64 → Fin 64 → EReal) (bb : Fin 64 → EReal) (q : Fin 64) : EReal :=
  denseRelu (denseRelu (fun j => h j + a j) wa ba) wb bb q

/-- One pooled row through the last linear map: `p · w + b` at column `q`. -/
def linRow (p : Fin 64 → EReal) (w : Fin 64 → Fin 32 → EReal) (b : Fin 32 → EReal) (q : Fin 32) : EReal :=
  (∑ k : Fin 64, p k * w k q) + b q

/-- `mlpRow` depends on its arguments only through their values. -/
theorem mlpRow_congr {h h' a a' : Fin 64 → EReal} {wa wa' wb wb' : Fin 64 → Fin 64 → EReal} {ba ba' bb bb' : Fin 64 → EReal} {q q' : Fin 64}
    (e1 : ∀ j, h j = h' j) (e2 : ∀ j, a j = a' j) (e3 : ∀ j k, wa j k = wa' j k) (e4 : ∀ k, ba k = ba' k)
    (e5 : ∀ j k, wb j k = wb' j k) (e6 : ∀ k, bb k = bb' k) (e7 : q = q') :
    mlpRow h a wa ba wb bb q = mlpRow h' a' wa' ba' wb' bb' q' := by
  obtain rfl : h = h' := funext e1
  obtain rfl : a = a' := funext e2
  obtain rfl : wa = wa' := funext fun j => funext (e3 j)
  obtain rfl : ba = ba' := funext e4
  obtain rfl : wb = wb' := funext fun j => funext (e5 j)
  obtain rfl : bb = bb' := funext e6
  rw [e7]

/-- `linRow` depends on its arguments only through their values. -/
theorem linRow_congr {p p' : Fin 64 → EReal} {w w' : Fin 64 → Fin 32 → EReal} {b b' : Fin 32 → EReal} {q q' : Fin 32}
    (e1 : ∀ k, p k = p' k) (e2 : ∀ k c, w k c = w' k c) (e3 : ∀ c, b c = b' c) (e4 : q = q') :
    linRow p w b q = linRow p' w' b' q' := by
  obtain rfl : p = p' := funext e1
  obtain rfl : w = w' := funext fun k => funext (e2 k)
  obtain rfl : b = b' := funext e3
  rw [e4]

/-- A GIN layer on whole arrays: row `i 0` of `h` and of the neighbour sum `agg` through `mlpRow`. -/
def layerG (h agg : (⟨2, ![50000, 64]⟩ : Shape).Idx → EReal) (wa : (⟨2, ![64, 64]⟩ : Shape).Idx → EReal)
    (ba : Fin 64 → EReal) (wb : (⟨2, ![64, 64]⟩ : Shape).Idx → EReal) (bb : Fin 64 → EReal) :
    (⟨2, ![50000, 64]⟩ : Shape).Idx → EReal :=
  fun i => mlpRow (fun j => h (ix2 (i 0) j)) (fun j => agg (ix2 (i 0) j)) (fun j k => wa (ix2 j k)) ba
    (fun j k => wb (ix2 j k)) bb (i 1)

/-- The last linear map on whole arrays. -/
def linG (p : (⟨2, ![512, 64]⟩ : Shape).Idx → EReal) (w : (⟨2, ![64, 32]⟩ : Shape).Idx → EReal) (b : Fin 32 → EReal) :
    (⟨2, ![512, 32]⟩ : Shape).Idx → EReal :=
  fun i => linRow (fun k => p (ix2 (i 0) k)) (fun k q => w (ix2 k q)) b (i 1)

/-- A plain matrix product's contraction, re-indexed: when the dimension numbers contract the left operand's
    axis 1 with the right operand's axis 0 (the four coordinate facts), the sum over the contraction index at
    output position `(p, c)` is `∑ k, l (p, k) * r (k, c)`. -/
theorem dot_sum {R K C : Nat} (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (l : (⟨2, ![R, K]⟩ : Shape).Idx → EReal) (r : (⟨2, ![K, C]⟩ : Shape).Idx → EReal) (p : Fin R) (c : Fin C) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.GinSpec

end
-- ==== Proof.KPay.lean ====
/-
  What each kernel body computes, read at one position of its output block.

  The three GIN bodies load a block of 5000 node rows of `h` and of the neighbour sum, the two 64×64 weight
  matrices and the two biases as 1×64 rows, and store `relu (relu ((h + agg) · wa + ba) · wb + bb)`. At the extended
  reals the roundings to bf16 on the way into the two matrix products are the identity, a matrix product into the
  zero accumulator is the plain sum of products over the 64 contracted columns, a 1×64 row broadcast over the rows
  reads its one row, and a `shape_cast` between equal shapes is the identity. So position `(p, q)` of the stored
  block is `mlpRow` of row `p` of the two loaded blocks at column `q`. The pooling body is one product and one
  bias: `linRow` of row `p` of the pooled block.
-/
import proofs.«138408_j7481833030168_1_alg».proof.Proof.Gen.KernelIdeal.Skeleton
import proofs.«138408_j7481833030168_1_alg».proof.Proof.Spec
import Idealize.ShloMosaic.Lib.ValueLayout

noncomputable section

namespace Cert.KernelIdeal.KPay

open Cert.KernelIdeal Cert.KernelIdeal.Gen Cert.GinSpec
open Idealize.ShloMosaic Idealize.ShloMosaic.ValueIdx

/-! ## The two matrix products' dimension numbers: left axis 1 against right axis 0 -/

abbrev dK := dot_S5000x64_S64x64_S5000x64_1_0_0_1_n_n
abbrev dP := dot_S512x64_S64x32_S512x32_1_0_0_1_n_n

theorem dK_l0 (i : S5000x64.Idx) (q : dK.contr.Idx) : (dK.lhsIdx i q 0).val = (i 0).val := by
  unfold DotDims.lhsIdx
  rw [dif_neg (show ¬(0 : Fin S5000x64.rank) ∈ dK.lhsBatch by decide), dif_pos (show (0 : Fin S5000x64.rank) ∈ dK.lhsNonContracting by decide)]
  rfl
theorem dK_l1 (i : S5000x64.Idx) (q : dK.contr.Idx) : (dK.lhsIdx i q 1).val = (q ⟨0, by decide⟩).val :=
  dK.lhsIdx_val_of_single rfl i q
theorem dK_r0 (i : S5000x64.Idx) (q : dK.contr.Idx) : (dK.rhsIdx i q 0).val = (q ⟨0, by decide⟩).val :=
  dK.rhsIdx_val_of_single rfl i q
theorem dK_r1 (i : S5000x64.Idx) (q : dK.contr.Idx) : (dK.rhsIdx i q 1).val = (i 1).val := by
  unfold DotDims.rhsIdx
  rw [dif_neg (show ¬(1 : Fin S64x64.rank) ∈ dK.rhsBatch by decide), dif_pos (show (1 : Fin S64x64.rank) ∈ dK.rhsNonContracting by decide)]
  rfl

theorem dP_l0 (i : S512x32.Idx) (q : dP.contr.Idx) : (dP.lhsIdx i q 0).val = (i 0).val := by
  unfold DotDims.lhsIdx
  rw [dif_neg (show ¬(0 : Fin S512x64.rank) ∈ dP.lhsBatch by decide), dif_pos (show (0 : Fin S512x64.rank) ∈ dP.lhsNonContracting by decide)]
  rfl
theorem dP_l1 (i : S512x32.Idx) (q : dP.contr.Idx) : (dP.lhsIdx i q 1).val = (q ⟨0, by decide⟩).val :=
  dP.lhsIdx_val_of_single rfl i q
theorem dP_r0 (i : S512x32.Idx) (q : dP.contr.Idx) : (dP.rhsIdx i q 0).val = (q ⟨0, by decide⟩).val :=
  dP.rhsIdx_val_of_single rfl i q
theorem dP_r1 (i : S512x32.Idx) (q : dP.contr.Idx) : (dP.rhsIdx i q 1).val = (i 1).val := by
  unfold DotDims.rhsIdx
  rw [dif_neg (show ¬(1 : Fin S64x32.rank) ∈ dP.rhsBatch by decide), dif_pos (show (1 : Fin S64x32.rank) ∈ dP.rhsNonContracting by decide)]
  rfl

/-- A 5000×64 by 64×64 product into the zero accumulator, at `(p, c)`: `∑ k, l (p, k) * r (k, c)`. -/
theorem matK {φ₁ φ₂ : FTy} (l : FVec Ideal S5000x64 φ₁) (r : FVec Ideal S64x64 φ₂) (p : Fin 5000) (c : Fin 64) :
    matmul dK none l r (constant S5000x64 .f32 0x00000000#32) (ix2 p c) = ∑ k : Fin 64, l (ix2 p k) * r (ix2 k c) :=
  (Ideal.matmul_constant_zero_apply dK none l r (ix2 p c)).trans
    (dot_sum dK rfl rfl dK_l0 dK_l1 dK_r0 dK_r1 l r p c)

/-- A 512×64 by 64×32 product into the zero accumulator, at `(p, c)`. -/
theorem matP {φ₁ φ₂ : FTy} (l : FVec Ideal S512x64 φ₁) (r : FVec Ideal S64x32 φ₂) (p : Fin 512) (c : Fin 32) :
    matmul dP none l r (constant S512x32 .f32 0x00000000#32) (ix2 p c) = ∑ k : Fin 64, l (ix2 p k) * r (ix2 k c) :=
  (Ideal.matmul_constant_zero_apply dP none l r (ix2 p c)).trans
    (dot_sum dP rfl rfl dP_l0 dP_l1 dP_r0 dP_r1 l r p c)

/-! ## One dense layer of a body, at a position: product, bias row, rectifier -/

/-- `relu (l · r + bias)` as the bodies spell it (the left factor rounded to bf16, the bias a 1×64 row cast to
    its own shape and broadcast over the rows, the zero a splat of the f32 zero word), at `(p, c)`. -/
theorem dense_apply (L : FVec Ideal S5000x64 .f32) (w : Vec Ideal S64x64 .f32) (b : Vec Ideal S1x64 .f32)
    (p : Fin 5000) (c : Fin 64) (lrow : Fin 64 → EReal) (hL : ∀ k, L (ix2 p k) = lrow k) :
    maximumf (addf (matmul dK none (truncf .bf16 L bitsLt_bf16_f32) (truncf .bf16 w bitsLt_bf16_f32) (constant S5000x64 .f32 0x00000000#32))
        (broadcastTo S5000x64 (shapeCast S1x64 b shapeCasts_S1x64_S1x64) broadcasts_S1x64_S5000x64))
      (broadcast S5000x64 (Scalar.ofBits .f32 0x00000000#32)) (ix2 p c)
      = denseRelu lrow (fun j k => w (ix2 j k)) (fun k => b (ix2 (0 : Fin 1) k)) c := by
  unfold denseRelu
  refine (maximumf_apply _ _ _).trans ?_
  refine congrArg₂ (fun a b : EReal => max a b) ?_ rfl
  refine (addf_apply _ _ _).trans ?_
  refine congrArg₂ (fun a b : EReal => a + b) ?_ ?_
  · refine (matK _ _ p c).trans ?_
    refine Finset.sum_congr rfl fun k _ => ?_
    exact congrArg₂ (fun a b : EReal => a * b) (hL k) rfl
  · refine (broadcastTo_1b_ab_apply _ _ p c).trans ?_
    exact congrFun (shapeCast_self b _) _

/-! ## The four bodies -/

/-- The first GIN body's stored block at `(p, q)`: `mlpRow` of row `p` of the loaded blocks. -/
theorem pay0_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    k0_pay1 (F := Ideal) x0 x1 x2 x3 x4 x5 (ix2 p q)
      = mlpRow (fun j => x0 (ix2 p j)) (fun j => x1 (ix2 p j)) (fun j k => x2 (ix2 j k)) (fun k => x3 (ix2 (0 : Fin 1) k))
          (fun j k => x4 (ix2 j k)) (fun k => x5 (ix2 (0 : Fin 1) k)) q := by
  unfold k0_pay1 mlpRow
  exact dense_apply _ x4 x5 p q _ fun k => dense_apply _ x2 x3 p k _ fun j =>
    (addf_apply _ _ _).trans (congrArg₂ (fun a b : EReal => a + b) rfl (congrFun (shapeCast_self x1 _) _))

/-- The second GIN body's stored block at `(p, q)`. -/
theorem pay1_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    k1_pay1 (F := Ideal) x0 x1 x2 x3 x4 x5 (ix2 p q)
      = mlpRow (fun j => x0 (ix2 p j)) (fun j => x1 (ix2 p j)) (fun j k => x2 (ix2 j k)) (fun k => x3 (ix2 (0 : Fin 1) k))
          (fun j k => x4 (ix2 j k)) (fun k => x5 (ix2 (0 : Fin 1) k)) q := by
  unfold k1_pay1 mlpRow
  exact dense_apply _ x4 x5 p q _ fun k => dense_apply _ x2 x3 p k _ fun j =>
    (addf_apply _ _ _).trans (congrArg₂ (fun a b : EReal => a + b) (congrFun (shapeCast_self x0 _) _) (congrFun (shapeCast_self x1 _) _))

/-- The third GIN body's stored block at `(p, q)`. -/
theorem pay2_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    k2_pay1 (F := Ideal) x0 x1 x2 x3 x4 x5 (ix2 p q)
      = mlpRow (fun j => x0 (ix2 p j)) (fun j => x1 (ix2 p j)) (fun j k => x2 (ix2 j k)) (fun k => x3 (ix2 (0 : Fin 1) k))
          (fun j k => x4 (ix2 j k)) (fun k => x5 (ix2 (0 : Fin 1) k)) q := by
  unfold k2_pay1 mlpRow
  exact dense_apply _ x4 x5 p q _ fun k => dense_apply _ x2 x3 p k _ fun j =>
    (addf_apply _ _ _).trans (congrArg₂ (fun a b : EReal => a + b) (congrFun (shapeCast_self x0 _) _) (congrFun (shapeCast_self x1 _) _))

/-- The pooling body's stored block at `(p, q)`: `linRow` of row `p` of the pooled block. -/
theorem pay3_apply (x0 : Vec Ideal S512x64 .f32) (x1 : Vec Ideal S64x32 .f32) (x2 : Vec Ideal S1x32 .f32) (p : Fin 512) (q : Fin 32) :
    k3_pay1 (F := Ideal) x0 x1 x2 (ix2 p q)
      = linRow (fun k => x0 (ix2 p k)) (fun k c => x1 (ix2 k c)) (fun c => x2 (ix2 (0 : Fin 1) c)) q := by
  unfold k3_pay1 linRow
  refine (addf_apply _ _ _).trans ?_
  refine congrArg₂ (fun a b : EReal => a + b) ?_ ?_
  · refine (matP _ _ p q).trans ?_
    refine Finset.sum_congr rfl fun k _ => ?_
    refine congrArg₂ (fun a b : EReal => a * b) ?_ rfl
    refine (truncf_apply (ψ := .bf16) _ bitsLt_bf16_f32 _).trans ?_
    exact congrFun (shapeCast_self x0 _) _
  · refine (broadcastTo_1b_ab_apply _ _ p q).trans ?_
    exact congrFun (shapeCast_self x2 _) _

end Cert.KernelIdeal.KPay

end
-- ==== Proof.KBlk0.lean ====
/-
  The first GIN region, from blocks to the whole array.

  The grid has 10 points; point `t` stages rows `5000 t … 5000 t + 4999` of `h` and of the neighbour sum, the
  whole of the two weight matrices and of the two bias rows, and writes back rows `5000 t …` of the result. What
  point `t` writes back is therefore block `t` of ONE whole-array function — `layerG` of the arrays as the region
  finds them: at block position `(p, q)` the body stores `mlpRow` of row `p` of the staged blocks, which is row
  `5000 t + p` of the arrays, and the weights and biases are read whole. The ten blocks cover the array (row `r`
  lies in the block of point `r / 5000`), so after the region the result array is that function.
-/
import proofs.«138408_j7481833030168_1_alg».proof.Proof.Gen.KernelIdeal.Frame
import proofs.«138408_j7481833030168_1_alg».proof.Proof.KPay
import Idealize.ShloMosaic.Lib.Pipeline.Value

set_option maxRecDepth 16384

noncomputable section

namespace Cert.KernelIdeal.KBlk0

open Cert.KernelIdeal Cert.KernelIdeal.Gen Cert.KernelIdeal.KPay Cert.GinSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's function of the arrays as the region finds them. -/
def G (c : Dev nD) : S50000x64.Idx → EReal :=
  layerG (V c main_arg0) (V c main_v13) (V c main_arg3) (fun k => V c main_v14 (ix2 (0 : Fin 1) k))
    (V c main_arg5) (fun k => V c main_v15 (ix2 (0 : Fin 1) k))

/-- The printed index maps over the grid: the two row-blocked inputs and the output sit at block `(t, 0)`,
    the weights and biases at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The body's stored block at a position, over variables: `mlpRow` of the position's row. -/
theorem pay_at (x0 x1 : Vec Ideal S5000x64 .f32) (x2 : Vec Ideal S64x64 .f32) (x3 : Vec Ideal S1x64 .f32)
    (x4 : Vec Ideal S64x64 .f32) (x5 : Vec Ideal S1x64 .f32) (y : S5000x64.Idx) :
    k0_pay1 (F := Ideal) x0 x1 x2 x3 x4 x5 y
      = mlpRow (fun j => x0 (ix2 (y 0) j)) (fun j => x1 (ix2 (y 0) j)) (fun j k => x2 (ix2 j k)) (fun k => x3 (ix2 (0 : Fin 1) k))
          (fun j k => x4 (ix2 j k)) (fun k => x5 (ix2 (0 : Fin 1) k)) (y 1) := by
  exact (congrArg (k0_pay1 (F := Ideal) x0 x1 x2 x3 x4 x5) (eq_ix2 y)).trans (pay0_apply x0 x1 x2 x3 x4 x5 (y 0) (y 1))

/-- WHAT POINT `t` WRITES BACK is block `t` of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x64) hz, View.ld_unit_zero (S := S1x64) hz]
  obtain ⟨a0, a1, b0, b1, c0, c1, d0, d1, e0, e1, f0, f1, g0, g1⟩ := idx_facts t
  funext y
  show k0_pay1 (F := Ideal) (iblk0 V c 0 t) (iblk0 V c 1 t) (iblk0 V c 2 t) (iblk0 V c 3 t) (iblk0 V c 4 t) (iblk0 V c 5 t) y
    = G V c (((cfg0.win 6).blk t).view.emb y)
  refine (pay_at (iblk0 V c 0 t) (iblk0 V c 1 t) (iblk0 V c 2 t) (iblk0 V c 3 t) (iblk0 V c 4 t) (iblk0 V c 5 t) y).trans ?_
  have hy0 : (y 0).val < 5000 := (y 0).isLt
  have hy1 : (y 1).val < 64 := (y 1).isLt
  unfold G layerG
  refine mlpRow_congr (fun j => ?_) (fun j => ?_) (fun j k => ?_) (fun k => ?_) (fun j k => ?_) (fun k => ?_) ?_
  · show V c main_arg0 (((cfg0.win 0).blk t).view.emb (ix2 (y 0) j)) = _
    refine congrArg (V c main_arg0) (funext fun a => Fin.ext ?_)
    match a with
    | ⟨0, _⟩ => show win0_0.index t (0 : Fin 2) * 5000 + 1 * (y 0).val = win0_6.index t (0 : Fin 2) * 5000 + 1 * (y 0).val; omega
    | ⟨1, _⟩ => show win0_0.index t (1 : Fin 2) * 64 + 1 * j.val = j.val; omega
  · show V c main_v13 (((cfg0.win 1).blk t).view.emb (ix2 (y 0) j)) = _
    refine congrArg (V c main_v13) (funext fun a => Fin.ext ?_)
    match a with
    | ⟨0, _⟩ => show win0_1.index t (0 : Fin 2) * 5000 + 1 * (y 0).val = win0_6.index t (0 : Fin 2) * 5000 + 1 * (y 0).val; omega
    | ⟨1, _⟩ => show win0_1.index t (1 : Fin 2) * 64 + 1 * j.val = j.val; omega
  · show V c main_arg3 (((cfg0.win 2).blk t).view.emb (ix2 j k)) = _
    refine congrArg (V c main_arg3) (funext fun a => Fin.ext ?_)
    match a with
    | ⟨0, _⟩ => show win0_2.index t (0 : Fin 2) * 64 + 1 * j.val = j.val; omega
    | ⟨1, _⟩ => show win0_2.index t (1 : Fin 2) * 64 + 1 * k.val = k.val; omega
  · show V c main_v14 (((cfg0.win 3).blk t).view.emb (ix2 (0 : Fin 1) k)) = _
    refine congrArg (V c main_v14) (funext fun a => Fin.ext ?_)
    match a with
    | ⟨0, _⟩ => show win0_3.index t (0 : Fin 2) * 1 + 1 * 0 = 0; omega
    | ⟨1, _⟩ => show win0_3.index t (1 : Fin 2) * 64 + 1 * k.val = k.val; omega
  · show V c main_arg5 (((cfg0.win 4).blk t).view.emb (ix2 j k)) = _
    refine congrArg (V c main_arg5) (funext fun a => Fin.ext ?_)
    match a with
    | ⟨0, _⟩ => show win0_4.index t (0 : Fin 2) * 64 + 1 * j.val = j.val; omega
    | ⟨1, _⟩ => show win0_4.index t (1 : Fin 2) * 64 + 1 * k.val = k.val; omega
  · show V c main_v15 (((cfg0.win 5).blk t).view.emb (ix2 (0 : Fin 1) k)) = _
    refine congrArg (V c main_v15) (funext fun a => Fin.ext ?_)
    match a with
    | ⟨0, _⟩ => show win0_5.index t (0 : Fin 2) * 1 + 1 * 0 = 0; omega
    | ⟨1, _⟩ => show win0_5.index t (1 : Fin 2) * 64 + 1 * k.val = k.val; omega
  · exact Fin.ext (by show (y 1).val = win0_6.index t (1 : Fin 2) * 64 + 1 * (y 1).val; omega)

/-- An index of the array is in point `t`'s block iff each coordinate is in the block's range on its axis. -/
theorem mem_blk (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- Every index is in some point's block: row `r` in the block of point `r / 5000`. -/
theorem cover (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : grid0.N = 10 := N_0
  let t : Fin cfg0.N := ⟨(i 0).val / 5000, by show (i 0).val / 5000 < grid0.N; omega⟩
  obtain ⟨a0, a1, b0, b1, c0, c1, d0, d1, e0, e1, f0, f1, g0, g1⟩ := idx_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE RESULT ARRAY after the region is `G` of the arrays as the region finds them. -/
theorem final (c : Dev nD) : (dat0 V c).arrAt 6 cfg0.N = G V c :=
  (dat0 V c).arrAt_eq_of_cover 6 (G V c) (fun t _ => flushed_eq V c t) cover

end Cert.KernelIdeal.KBlk0

end
-- ==== Proof.KBlk1.lean ====
/-
  The second GIN region, from blocks to the whole array.

  The grid has 10 points; point `t` stages rows `5000 t … 5000 t + 4999` of `h` and of the neighbour sum, the
  whole of the two weight matrices and of the two bias rows, and writes back rows `5000 t …` of the result. What
  point `t` writes back is therefore block `t` of ONE whole-array function — `layerG` of the arrays as the region
  finds them: at block position `(p, q)` the body stores `mlpRow` of row `p` of the staged blocks, which is row
  `5000 t + p` of the arrays, and the weights and biases are read whole. The ten blocks cover the array (row `r`
  lies in the block of point `r / 5000`), so after the region the result array is that function.
-/
import proofs.«138408_j7481833030168_1_alg».proof.Proof.Gen.KernelIdeal.Frame
import proofs.«138408_j7481833030168_1_alg».proof.Proof.KPay
import Idealize.ShloMosaic.Lib.Pipeline.Value

set_option maxRecDepth 16384

noncomputable section

namespace Cert.KernelIdeal.KBlk1

open Cert.KernelIdeal Cert.KernelIdeal.Gen Cert.KernelIdeal.KPay Cert.GinSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's function of the arrays as the region finds them. -/
def G (c : Dev nD) : S50000x64.Idx → EReal :=
  layerG (V c main_v16) (V c main_v26) (V c main_arg7) (fun k => V c main_v27 (ix2 (0 : Fin 1) k))
    (V c main_arg9) (fun k => V c main_v28 (ix2 (0 : Fin 1) k))

/-- The printed index maps over the grid: the two row-blocked inputs and the output sit at block `(t, 0)`,
    the weights and biases at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The body's stored block at a position, over variables: `mlpRow` of the position's row. -/
theorem pay_at (x0 x1 : Vec Ideal S5000x64 .f32) (x2 : Vec Ideal S64x64 .f32) (x3 : Vec Ideal S1x64 .f32)
    (x4 : Vec Ideal S64x64 .f32) (x5 : Vec Ideal S1x64 .f32) (y : S5000x64.Idx) :
    k1_pay1 (F := Ideal) x0 x1 x2 x3 x4 x5 y
      = mlpRow (fun j => x0 (ix2 (y 0) j)) (fun j => x1 (ix2 (y 0) j)) (fun j k => x2 (ix2 j k)) (fun k => x3 (ix2 (0 : Fin 1) k))
          (fun j k => x4 (ix2 j k)) (fun k => x5 (ix2 (0 : Fin 1) k)) (y 1) := by
  exact (congrArg (k1_pay1 (F := Ideal) x0 x1 x2 x3 x4 x5) (eq_ix2 y)).trans (pay1_apply x0 x1 x2 x3 x4 x5 (y 0) (y 1))

/-- WHAT POINT `t` WRITES BACK is block `t` of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz]
  obtain ⟨a0, a1, b0, b1, c0, c1, d0, d1, e0, e1, f0, f1, g0, g1⟩ := idx_facts t
  funext y
  show k1_pay1 (F := Ideal) (iblk1 V c 0 t) (iblk1 V c 1 t) (iblk1 V c 2 t) (iblk1 V c 3 t) (iblk1 V c 4 t) (iblk1 V c 5 t) y
    = G V c (((cfg1.win 6).blk t).view.emb y)
  refine (pay_at (iblk1 V c 0 t) (iblk1 V c 1 t) (iblk1 V c 2 t) (iblk1 V c 3 t) (iblk1 V c 4 t) (iblk1 V c 5 t) y).trans ?_
  have hy0 : (y 0).val < 5000 := (y 0).isLt
  have hy1 : (y 1).val < 64 := (y 1).isLt
  unfold G layerG
  refine mlpRow_congr (fun j => ?_) (fun j => ?_) (fun j k => ?_) (fun k => ?_) (fun j k => ?_) (fun k => ?_) ?_
  · show V c main_v16 (((cfg1.win 0).blk t).view.emb (ix2 (y 0) j)) = _
    refine congrArg (V c main_v16) (funext fun a => Fin.ext ?_)
    match a with
    | ⟨0, _⟩ => show win1_0.index t (0 : Fin 2) * 5000 + 1 * (y 0).val = win1_6.index t (0 : Fin 2) * 5000 + 1 * (y 0).val; omega
    | ⟨1, _⟩ => show win1_0.index t (1 : Fin 2) * 64 + 1 * j.val = j.val; omega
  · show V c main_v26 (((cfg1.win 1).blk t).view.emb (ix2 (y 0) j)) = _
    refine congrArg (V c main_v26) (funext fun a => Fin.ext ?_)
    match a with
    | ⟨0, _⟩ => show win1_1.index t (0 : Fin 2) * 5000 + 1 * (y 0).val = win1_6.index t (0 : Fin 2) * 5000 + 1 * (y 0).val; omega
    | ⟨1, _⟩ => show win1_1.index t (1 : Fin 2) * 64 + 1 * j.val = j.val; omega
  · show V c main_arg7 (((cfg1.win 2).blk t).view.emb (ix2 j k)) = _
    refine congrArg (V c main_arg7) (funext fun a => Fin.ext ?_)
    match a with
    | ⟨0, _⟩ => show win1_2.index t (0 : Fin 2) * 64 + 1 * j.val = j.val; omega
    | ⟨1, _⟩ => show win1_2.index t (1 : Fin 2) * 64 + 1 * k.val = k.val; omega
  · show V c main_v27 (((cfg1.win 3).blk t).view.emb (ix2 (0 : Fin 1) k)) = _
    refine congrArg (V c main_v27) (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  · show V c main_arg9 (((cfg1.win 4).blk t).view.emb (ix2 j k)) = _
    refine congrArg (V c main_arg9) (funext fun a => Fin.ext ?_)
    match a with
    | ⟨0, _⟩ => show win1_4.index t (0 : Fin 2) * 64 + 1 * j.val = j.val; omega
    | ⟨1, _⟩ => show win1_4.index t (1 : Fin 2) * 64 + 1 * k.val = k.val; omega
  · show V c main_v28 (((cfg1.win 5).blk t).view.emb (ix2 (0 : Fin 1) k)) = _
    refine congrArg (V c main_v28) (funext fun a => Fin.ext ?_)
    match a with
    | ⟨0, _⟩ => show win1_5.index t (0 : Fin 2) * 1 + 1 * 0 = 0; omega
    | ⟨1, _⟩ => show win1_5.index t (1 : Fin 2) * 64 + 1 * k.val = k.val; omega
  · exact Fin.ext (by show (y 1).val = win1_6.index t (1 : Fin 2) * 64 + 1 * (y 1).val; omega)

/-- An index of the array is in point `t`'s block iff each coordinate is in the block's range on its axis. -/
theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29).slice (win1_6.rect t)).set ↔ _
  rw [View.set_slice_whole, Rect.mem_set_unit]
  exact Iff.rfl

/-- Every index is in some point's block: row `r` in the block of point `r / 5000`. -/
theorem cover (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; omega⟩
  obtain ⟨a0, a1, b0, b1, c0, c1, d0, d1, e0, e1, f0, f1, g0, g1⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- THE RESULT ARRAY after the region is `G` of the arrays as the region finds them. -/
theorem final (c : Dev nD) : (dat1 V c).arrAt 6 cfg1.N = G V c :=
  (dat1 V c).arrAt_eq_of_cover 6 (G V c) (fun t _ => flushed_eq V c t) cover

end Cert.KernelIdeal.KBlk1

end
-- ==== Proof.KBlk2.lean ====
/-
  The third GIN region, from blocks to the whole array.

  The grid has 10 points; point `t` stages rows `5000 t … 5000 t + 4999` of `h` and of the neighbour sum, the
  whole of the two weight matrices and of the two bias rows, and writes back rows `5000 t …` of the result. What
  point `t` writes back is therefore block `t` of ONE whole-array function — `layerG` of the arrays as the region
  finds them: at block position `(p, q)` the body stores `mlpRow` of row `p` of the staged blocks, which is row
  `5000 t + p` of the arrays, and the weights and biases are read whole. The ten blocks cover the array (row `r`
  lies in the block of point `r / 5000`), so after the region the result array is that function.
-/
import proofs.«138408_j7481833030168_1_alg».proof.Proof.Gen.KernelIdeal.Frame
import proofs.«138408_j7481833030168_1_alg».proof.Proof.KPay
import Idealize.ShloMosaic.Lib.Pipeline.Value

set_option maxRecDepth 16384

noncomputable section

namespace Cert.KernelIdeal.KBlk2

open Cert.KernelIdeal Cert.KernelIdeal.Gen Cert.KernelIdeal.KPay Cert.GinSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's function of the arrays as the region finds them. -/
def G (c : Dev nD) : S50000x64.Idx → EReal :=
  layerG (V c main_v29) (V c main_v39) (V c main_arg11) (fun k => V c main_v40 (ix2 (0 : Fin 1) k))
    (V c main_arg13) (fun k => V c main_v41 (ix2 (0 : Fin 1) k))

/-- The printed index maps over the grid: the two row-blocked inputs and the output sit at block `(t, 0)`,
    the weights and biases at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The body's stored block at a position, over variables: `mlpRow` of the position's row. -/
theorem pay_at (x0 x1 : Vec Ideal S5000x64 .f32) (x2 : Vec Ideal S64x64 .f32) (x3 : Vec Ideal S1x64 .f32)
    (x4 : Vec Ideal S64x64 .f32) (x5 : Vec Ideal S1x64 .f32) (y : S5000x64.Idx) :
    k2_pay1 (F := Ideal) x0 x1 x2 x3 x4 x5 y
      = mlpRow (fun j => x0 (ix2 (y 0) j)) (fun j => x1 (ix2 (y 0) j)) (fun j k => x2 (ix2 j k)) (fun k => x3 (ix2 (0 : Fin 1) k))
          (fun j k => x4 (ix2 j k)) (fun k => x5 (ix2 (0 : Fin 1) k)) (y 1) := by
  exact (congrArg (k2_pay1 (F := Ideal) x0 x1 x2 x3 x4 x5) (eq_ix2 y)).trans (pay2_apply x0 x1 x2 x3 x4 x5 (y 0) (y 1))

/-- WHAT POINT `t` WRITES BACK is block `t` of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz]
  obtain ⟨a0, a1, b0, b1, c0, c1, d0, d1, e0, e1, f0, f1, g0, g1⟩ := idx_facts t
  funext y
  show k2_pay1 (F := Ideal) (iblk2 V c 0 t) (iblk2 V c 1 t) (iblk2 V c 2 t) (iblk2 V c 3 t) (iblk2 V c 4 t) (iblk2 V c 5 t) y
    = G V c (((cfg2.win 6).blk t).view.emb y)
  refine (pay_at (iblk2 V c 0 t) (iblk2 V c 1 t) (iblk2 V c 2 t) (iblk2 V c 3 t) (iblk2 V c 4 t) (iblk2 V c 5 t) y).trans ?_
  have hy0 : (y 0).val < 5000 := (y 0).isLt
  have hy1 : (y 1).val < 64 := (y 1).isLt
  unfold G layerG
  refine mlpRow_congr (fun j => ?_) (fun j => ?_) (fun j k => ?_) (fun k => ?_) (fun j k => ?_) (fun k => ?_) ?_
  · show V c main_v29 (((cfg2.win 0).blk t).view.emb (ix2 (y 0) j)) = _
    refine congrArg (V c main_v29) (funext fun a => Fin.ext ?_)
    match a with
    | ⟨0, _⟩ => show win2_0.index t (0 : Fin 2) * 5000 + 1 * (y 0).val = win2_6.index t (0 : Fin 2) * 5000 + 1 * (y 0).val; omega
    | ⟨1, _⟩ => show win2_0.index t (1 : Fin 2) * 64 + 1 * j.val = j.val; omega
  · show V c main_v39 (((cfg2.win 1).blk t).view.emb (ix2 (y 0) j)) = _
    refine congrArg (V c main_v39) (funext fun a => Fin.ext ?_)
    match a with
    | ⟨0, _⟩ => show win2_1.index t (0 : Fin 2) * 5000 + 1 * (y 0).val = win2_6.index t (0 : Fin 2) * 5000 + 1 * (y 0).val; omega
    | ⟨1, _⟩ => show win2_1.index t (1 : Fin 2) * 64 + 1 * j.val = j.val; omega
  · show V c main_arg11 (((cfg2.win 2).blk t).view.emb (ix2 j k)) = _
    refine congrArg (V c main_arg11) (funext fun a => Fin.ext ?_)
    match a with
    | ⟨0, _⟩ => show win2_2.index t (0 : Fin 2) * 64 + 1 * j.val = j.val; omega
    | ⟨1, _⟩ => show win2_2.index t (1 : Fin 2) * 64 + 1 * k.val = k.val; omega
  · show V c main_v40 (((cfg2.win 3).blk t).view.emb (ix2 (0 : Fin 1) k)) = _
    refine congrArg (V c main_v40) (funext fun a => Fin.ext ?_)
    match a with
    | ⟨0, _⟩ => show win2_3.index t (0 : Fin 2) * 1 + 1 * 0 = 0; omega
    | ⟨1, _⟩ => show win2_3.index t (1 : Fin 2) * 64 + 1 * k.val = k.val; omega
  · show V c main_arg13 (((cfg2.win 4).blk t).view.emb (ix2 j k)) = _
    refine congrArg (V c main_arg13) (funext fun a => Fin.ext ?_)
    match a with
    | ⟨0, _⟩ => show win2_4.index t (0 : Fin 2) * 64 + 1 * j.val = j.val; omega
    | ⟨1, _⟩ => show win2_4.index t (1 : Fin 2) * 64 + 1 * k.val = k.val; omega
  · show V c main_v41 (((cfg2.win 5).blk t).view.emb (ix2 (0 : Fin 1) k)) = _
    refine congrArg (V c main_v41) (funext fun a => Fin.ext ?_)
    match a with
    | ⟨0, _⟩ => show win2_5.index t (0 : Fin 2) * 1 + 1 * 0 = 0; omega
    | ⟨1, _⟩ => show win2_5.index t (1 : Fin 2) * 64 + 1 * k.val = k.val; omega
  · exact Fin.ext (by show (y 1).val = win2_6.index t (1 : Fin 2) * 64 + 1 * (y 1).val; omega)

/-- An index of the array is in point `t`'s block iff each coordinate is in the block's range on its axis. -/
theorem mem_blk (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v42).slice (win2_6.rect t)).set ↔ _
  rw [View.set_slice_whole, Rect.mem_set_unit]
  exact Iff.rfl

/-- Every index is in some point's block: row `r` in the block of point `r / 5000`. -/
theorem cover (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN : grid2.N = 10 := N_2
  let t : Fin cfg2.N := ⟨(i 0).val / 5000, by show (i 0).val / 5000 < grid2.N; omega⟩
  obtain ⟨a0, a1, b0, b1, c0, c1, d0, d1, e0, e1, f0, f1, g0, g1⟩ := idx_facts t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- THE RESULT ARRAY after the region is `G` of the arrays as the region finds them. -/
theorem final (c : Dev nD) : (dat2 V c).arrAt 6 cfg2.N = G V c :=
  (dat2 V c).arrAt_eq_of_cover 6 (G V c) (fun t _ => flushed_eq V c t) cover

end Cert.KernelIdeal.KBlk2

end
-- ==== Proof.KBlk3.lean ====
/-
  The pooling region, from its one block to the whole array.

  The grid has one point, and every window's block is its whole array: the pooled rows, the 64×32 weight matrix,
  the bias as a 1×32 row, and the 512×32 result. The body stores `linRow` of each pooled row, so what the one point
  writes back is the whole of `linG` of the arrays as the region finds them, and that one block covers the array.
-/
import proofs.«138408_j7481833030168_1_alg».proof.Proof.Gen.KernelIdeal.Frame
import proofs.«138408_j7481833030168_1_alg».proof.Proof.KPay
import Idealize.ShloMosaic.Lib.Pipeline.Value

set_option maxRecDepth 16384

noncomputable section

namespace Cert.KernelIdeal.KBlk3

open Cert.KernelIdeal Cert.KernelIdeal.Gen Cert.KernelIdeal.KPay Cert.GinSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The last linear map's function of the arrays as the region finds them. -/
def G (c : Dev nD) : S512x32.Idx → EReal :=
  linG (V c main_v45) (V c main_arg15) (fun k => V c main_v46 (ix2 (0 : Fin 1) k))

/-- The printed index maps at the grid's one point: every window sits at block `(0, 0)`. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The body's stored block at a position, over variables: `linRow` of the position's row. -/
theorem pay_at (x0 : Vec Ideal S512x64 .f32) (x1 : Vec Ideal S64x32 .f32) (x2 : Vec Ideal S1x32 .f32) (y : S512x32.Idx) :
    k3_pay1 (F := Ideal) x0 x1 x2 y
      = linRow (fun k => x0 (ix2 (y 0) k)) (fun k c => x1 (ix2 k c)) (fun c => x2 (ix2 (0 : Fin 1) c)) (y 1) :=
  (congrArg (k3_pay1 (F := Ideal) x0 x1 x2) (eq_ix2 y)).trans (pay3_apply x0 x1 x2 (y 0) (y 1))

/-- WHAT THE ONE POINT WRITES BACK is the one block of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S512x64) hz, View.ld_unit_zero (S := S64x32) hz, View.ld_unit_zero (S := S1x32) hz]
  obtain ⟨a0, a1, b0, b1, c0, c1, d0, d1⟩ := idx_facts t
  funext y
  show k3_pay1 (F := Ideal) (iblk3 V c 0 t) (iblk3 V c 1 t) (iblk3 V c 2 t) y = G V c (((cfg3.win 3).blk t).view.emb y)
  refine (pay_at (iblk3 V c 0 t) (iblk3 V c 1 t) (iblk3 V c 2 t) y).trans ?_
  have hy0 : (y 0).val < 512 := (y 0).isLt
  have hy1 : (y 1).val < 32 := (y 1).isLt
  unfold G linG
  refine linRow_congr (fun k => ?_) (fun k q => ?_) (fun q => ?_) ?_
  · show V c main_v45 (((cfg3.win 0).blk t).view.emb (ix2 (y 0) k)) = _
    refine congrArg (V c main_v45) (funext fun a => Fin.ext ?_)
    match a with
    | ⟨0, _⟩ => show win3_0.index t (0 : Fin 2) * 512 + 1 * (y 0).val = win3_3.index t (0 : Fin 2) * 512 + 1 * (y 0).val; omega
    | ⟨1, _⟩ => show win3_0.index t (1 : Fin 2) * 64 + 1 * k.val = k.val; omega
  · show V c main_arg15 (((cfg3.win 1).blk t).view.emb (ix2 k q)) = _
    refine congrArg (V c main_arg15) (funext fun a => Fin.ext ?_)
    match a with
    | ⟨0, _⟩ => show win3_1.index t (0 : Fin 2) * 64 + 1 * k.val = k.val; omega
    | ⟨1, _⟩ => show win3_1.index t (1 : Fin 2) * 32 + 1 * q.val = q.val; omega
  · show V c main_v46 (((cfg3.win 2).blk t).view.emb (ix2 (0 : Fin 1) q)) = _
    refine congrArg (V c main_v46) (funext fun a => Fin.ext ?_)
    match a with
    | ⟨0, _⟩ => show win3_2.index t (0 : Fin 2) * 1 + 1 * 0 = 0; omega
    | ⟨1, _⟩ => show win3_2.index t (1 : Fin 2) * 32 + 1 * q.val = q.val; omega
  · exact Fin.ext (by show (y 1).val = win3_3.index t (1 : Fin 2) * 32 + 1 * (y 1).val; omega)

/-- An index of the array is in point `t`'s block iff each coordinate is in the block's range on its axis. -/
theorem mem_blk (t : Fin cfg3.N) (i : S512x32.Idx) :
    i ∈ ((cfg3.win 3).blk t).view.set ↔ ∀ a : Fin 2, win3_3.index t a * S512x32.size a ≤ (i a).val ∧ (i a).val < win3_3.index t a * S512x32.size a + S512x32.size a := by
  show i ∈ ((View.whole main_v47).slice (win3_3.rect t)).set ↔ _
  rw [View.set_slice_whole, Rect.mem_set_unit]
  exact Iff.rfl

/-- Every index is in the one point's block. -/
theorem cover (i : S512x32.Idx) : ∃ t : Fin cfg3.N, (cfg3.win 3).flush t = true ∧ i ∈ ((cfg3.win 3).blk t).view.set := by
  have hi0 : (i 0).val < 512 := (i 0).isLt
  have hi1 : (i 1).val < 32 := (i 1).isLt
  have hN : grid3.N = 1 := N_3
  let t : Fin cfg3.N := ⟨0, by show 0 < grid3.N; omega⟩
  obtain ⟨a0, a1, b0, b1, c0, c1, d0, d1⟩ := idx_facts t
  refine ⟨t, flush3_3 t, ?_⟩
  rw [mem_blk]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 32 ≤ (i 1).val ∧ (i 1).val < win3_3.index t (1 : Fin 2) * 32 + 32; omega

/-- THE RESULT ARRAY after the region is `G` of the arrays as the region finds them. -/
theorem final (c : Dev nD) : (dat3 V c).arrAt 3 cfg3.N = G V c :=
  (dat3 V c).arrAt_eq_of_cover 3 (G V c) (fun t _ => flushed_eq V c t) cover

end Cert.KernelIdeal.KBlk3

end
-- ==== Proof.Net.lean ====
/-
  The whole network as one function of the argument arrays.

  Both programs gather and scatter on the host with the same operations: from the edge list `e` (a 2×800000 array
  of node numbers) row 0 gives the source of each edge — a negative number wrapped by adding 50000 — and row 1
  its destination; the neighbour sum `agg h` scatters-and-adds row `src` of `h` into row `dst` of a zero array, and
  the pooling `pool h b` scatters-and-adds row `r` of `h` into row `b r` of a 512-row zero array. These are kept
  as they are printed and never opened: the proof only needs that both programs apply the SAME functions to equal
  arrays. A layer is `layerG` of `h` and its neighbour sum; the network is three layers, the pooling, and the last
  linear map.
-/
import proofs.«138408_j7481833030168_1_alg».proof.Proof.Gen.KernelIdeal
import proofs.«138408_j7481833030168_1_alg».proof.Proof.Spec

noncomputable section

namespace Cert.KernelIdeal.Net

open Cert.KernelIdeal Cert.KernelIdeal.Gen Cert.GinSpec
open Idealize.ShloMosaic Idealize.ShloMosaic.ValueIdx

/-- Row 0 of the edge list as a vector: each edge's source node, as given. -/
def srcRaw (e : IVec S2x800000 32) : IVec S800000 32 :=
  shapeCast _ (extractStridedSlice S1x800000 ![0, 0] e slices_S2x800000_S1x800000_0_0) shapeCasts_S1x800000_S800000

/-- Row 1 of the edge list as a vector: each edge's destination node. -/
def dstRaw (e : IVec S2x800000 32) : IVec S800000 32 :=
  shapeCast _ (extractStridedSlice S1x800000 ![1, 0] e slices_S2x800000_S1x800000_1_0) shapeCasts_S1x800000_S800000

/-- The gather's index column: a negative source wrapped by adding the node count. -/
def srcCol (u : IVec S800000 32) : IVec S800000x1 32 :=
  broadcastInDim S800000x1 ![0] bcast_S800000_S800000x1_0
    (select (cmpi .slt u (broadcastInDim S800000 ![] bcast_S_S800000 (constantI S_ 32 0#32)))
      (addi u (broadcastInDim S800000 ![] bcast_S_S800000 (constantI S_ 32 50000#32))) u)

/-- The neighbour sum: row `src` of `h` scattered-and-added into row `dst` of a zero array. -/
def agg (h : FVec Ideal S50000x64 .f32) (u1 u3 : IVec S800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 u3)
    (Host.gather gather_S50000x64_S800000x1_S800000x64_1_0_n_n_0_1_164 h (srcCol u1))

/-- The pooling: row `r` of `h` scattered-and-added into row `b r` of a 512-row zero array. -/
def pool (h : FVec Ideal S50000x64 .f32) (b : IVec S50000 32) : FVec Ideal S512x64 .f32 :=
  Host.scatterAdd scatter_S512x64_S50000x1_S50000x64_1_0_0_1
    (broadcastInDim S512x64 ![] bcast_S_S512x64 (constant S_ .f32 0x00000000#32))
    (broadcastInDim S50000x1 ![0] bcast_S50000_S50000x1_0 b) h

/-- A bias vector as a function of its one coordinate. -/
def rowOf {n : Nat} (b : (⟨1, ![n]⟩ : Shape).Idx → EReal) : Fin n → EReal := fun k => b (ix1 k)

/-- One GIN layer: `layerG` of `h` and its neighbour sum. -/
def layerK (h : FVec Ideal S50000x64 .f32) (u1 u3 : IVec S800000 32) (wa : FVec Ideal S64x64 .f32) (ba : FVec Ideal S64 .f32)
    (wb : FVec Ideal S64x64 .f32) (bb : FVec Ideal S64 .f32) : FVec Ideal S50000x64 .f32 :=
  layerG h (agg h u1 u3) wa (rowOf ba) wb (rowOf bb)

/-- The network: three layers, the pooling, the last linear map. -/
def netG (x : FVec Ideal S50000x64 .f32) (e : IVec S2x800000 32) (b : IVec S50000 32)
    (w0a : FVec Ideal S64x64 .f32) (b0a : FVec Ideal S64 .f32) (w0b : FVec Ideal S64x64 .f32) (b0b : FVec Ideal S64 .f32)
    (w1a : FVec Ideal S64x64 .f32) (b1a : FVec Ideal S64 .f32) (w1b : FVec Ideal S64x64 .f32) (b1b : FVec Ideal S64 .f32)
    (w2a : FVec Ideal S64x64 .f32) (b2a : FVec Ideal S64 .f32) (w2b : FVec Ideal S64x64 .f32) (b2b : FVec Ideal S64 .f32)
    (lw : FVec Ideal S64x32 .f32) (lb : FVec Ideal S32 .f32) : FVec Ideal S512x32 .f32 :=
  linG (pool (layerK (layerK (layerK x (srcRaw e) (dstRaw e) w0a b0a w0b b0b) (srcRaw e) (dstRaw e) w1a b1a w1b b1b)
    (srcRaw e) (dstRaw e) w2a b2a w2b b2b) b) lw (rowOf lb)

end Cert.KernelIdeal.Net

end
-- ==== Proof.KChain.lean ====
/-
  The result of the idealized kernel program as the network's function of the arguments.

  The buffer contents at the eight boundaries of @main are a fold from the launch memory (`W0 … W8`). A host stretch
  applies its operations to the contents before it; a region leaves its output array at the layer's function of the
  arrays it finds (the blocks-to-array modules) and every other buffer as it was. Walking back from `W8` at the
  result's buffer: the last region gives the linear map of the pooled array; the stretch before it gives the
  pooling of the third layer's output; each layer's output is `layerG` of the layer's input and of its neighbour
  sum, which the stretch before the region computed from that input and from the edge list's two rows — computed once
  in the first stretch and carried unchanged, as every argument is, since no segment writes them.
-/
import proofs.«138408_j7481833030168_1_alg».proof.Proof.Gen.KernelIdeal.Frame
import proofs.«138408_j7481833030168_1_alg».proof.Proof.KBlk0
import proofs.«138408_j7481833030168_1_alg».proof.Proof.KBlk1
import proofs.«138408_j7481833030168_1_alg».proof.Proof.KBlk2
import proofs.«138408_j7481833030168_1_alg».proof.Proof.KBlk3
import proofs.«138408_j7481833030168_1_alg».proof.Proof.Net
import Idealize.ShloMosaic.Lib.ValueLayout
import Idealize.ShloMosaic.Lib.StableHlo.Run

set_option maxRecDepth 16384

noncomputable section

namespace Cert.KernelIdeal.KChain

open Cert.KernelIdeal Cert.KernelIdeal.Gen Cert.KernelIdeal.Net Cert.GinSpec
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-! ## What no segment writes is carried: the arguments and the edge list's two rows, boundary by boundary -/

theorem a1_0 : W1 m ρ c (Proc.devRef .tc main_arg0) = m ((c : Thread nD τ).loc main_arg0) := by
  show StableHlo.after hostOps0 (W0 m ρ c) (Proc.devRef .tc main_arg0) = _
  after_results
theorem a1_2 : W1 m ρ c (Proc.devRef .tc main_arg2) = m ((c : Thread nD τ).loc main_arg2) := by
  show StableHlo.after hostOps0 (W0 m ρ c) (Proc.devRef .tc main_arg2) = _
  after_results
theorem a1_3 : W1 m ρ c (Proc.devRef .tc main_arg3) = m ((c : Thread nD τ).loc main_arg3) := by
  show StableHlo.after hostOps0 (W0 m ρ c) (Proc.devRef .tc main_arg3) = _
  after_results
theorem a1_5 : W1 m ρ c (Proc.devRef .tc main_arg5) = m ((c : Thread nD τ).loc main_arg5) := by
  show StableHlo.after hostOps0 (W0 m ρ c) (Proc.devRef .tc main_arg5) = _
  after_results
theorem a1_7 : W1 m ρ c (Proc.devRef .tc main_arg7) = m ((c : Thread nD τ).loc main_arg7) := by
  show StableHlo.after hostOps0 (W0 m ρ c) (Proc.devRef .tc main_arg7) = _
  after_results
theorem a1_8 : W1 m ρ c (Proc.devRef .tc main_arg8) = m ((c : Thread nD τ).loc main_arg8) := by
  show StableHlo.after hostOps0 (W0 m ρ c) (Proc.devRef .tc main_arg8) = _
  after_results
theorem a1_9 : W1 m ρ c (Proc.devRef .tc main_arg9) = m ((c : Thread nD τ).loc main_arg9) := by
  show StableHlo.after hostOps0 (W0 m ρ c) (Proc.devRef .tc main_arg9) = _
  after_results
theorem a1_10 : W1 m ρ c (Proc.devRef .tc main_arg10) = m ((c : Thread nD τ).loc main_arg10) := by
  show StableHlo.after hostOps0 (W0 m ρ c) (Proc.devRef .tc main_arg10) = _
  after_results
theorem a1_11 : W1 m ρ c (Proc.devRef .tc main_arg11) = m ((c : Thread nD τ).loc main_arg11) := by
  show StableHlo.after hostOps0 (W0 m ρ c) (Proc.devRef .tc main_arg11) = _
  after_results
theorem a1_12 : W1 m ρ c (Proc.devRef .tc main_arg12) = m ((c : Thread nD τ).loc main_arg12) := by
  show StableHlo.after hostOps0 (W0 m ρ c) (Proc.devRef .tc main_arg12) = _
  after_results
theorem a1_13 : W1 m ρ c (Proc.devRef .tc main_arg13) = m ((c : Thread nD τ).loc main_arg13) := by
  show StableHlo.after hostOps0 (W0 m ρ c) (Proc.devRef .tc main_arg13) = _
  after_results
theorem a1_14 : W1 m ρ c (Proc.devRef .tc main_arg14) = m ((c : Thread nD τ).loc main_arg14) := by
  show StableHlo.after hostOps0 (W0 m ρ c) (Proc.devRef .tc main_arg14) = _
  after_results
theorem a1_15 : W1 m ρ c (Proc.devRef .tc main_arg15) = m ((c : Thread nD τ).loc main_arg15) := by
  show StableHlo.after hostOps0 (W0 m ρ c) (Proc.devRef .tc main_arg15) = _
  after_results
theorem a1_16 : W1 m ρ c (Proc.devRef .tc main_arg16) = m ((c : Thread nD τ).loc main_arg16) := by
  show StableHlo.after hostOps0 (W0 m ρ c) (Proc.devRef .tc main_arg16) = _
  after_results
theorem v1_1 : W1 m ρ c (Proc.devRef .tc main_v1) = srcRaw (m ((c : Thread nD τ).loc main_arg1)) := by
  show StableHlo.after hostOps0 (W0 m ρ c) (Proc.devRef .tc main_v1) = _
  after_results; rfl
theorem v3_1 : W1 m ρ c (Proc.devRef .tc main_v3) = dstRaw (m ((c : Thread nD τ).loc main_arg1)) := by
  show StableHlo.after hostOps0 (W0 m ρ c) (Proc.devRef .tc main_v3) = _
  after_results; rfl
theorem a2_2 : W2 m ρ c (Proc.devRef .tc main_arg2) = m ((c : Thread nD τ).loc main_arg2) :=
  (W2_of_ne m ρ c main_arg2 (by decide)).trans (a1_2 m ρ c)
theorem a2_7 : W2 m ρ c (Proc.devRef .tc main_arg7) = m ((c : Thread nD τ).loc main_arg7) :=
  (W2_of_ne m ρ c main_arg7 (by decide)).trans (a1_7 m ρ c)
theorem a2_8 : W2 m ρ c (Proc.devRef .tc main_arg8) = m ((c : Thread nD τ).loc main_arg8) :=
  (W2_of_ne m ρ c main_arg8 (by decide)).trans (a1_8 m ρ c)
theorem a2_9 : W2 m ρ c (Proc.devRef .tc main_arg9) = m ((c : Thread nD τ).loc main_arg9) :=
  (W2_of_ne m ρ c main_arg9 (by decide)).trans (a1_9 m ρ c)
theorem a2_10 : W2 m ρ c (Proc.devRef .tc main_arg10) = m ((c : Thread nD τ).loc main_arg10) :=
  (W2_of_ne m ρ c main_arg10 (by decide)).trans (a1_10 m ρ c)
theorem a2_11 : W2 m ρ c (Proc.devRef .tc main_arg11) = m ((c : Thread nD τ).loc main_arg11) :=
  (W2_of_ne m ρ c main_arg11 (by decide)).trans (a1_11 m ρ c)
theorem a2_12 : W2 m ρ c (Proc.devRef .tc main_arg12) = m ((c : Thread nD τ).loc main_arg12) :=
  (W2_of_ne m ρ c main_arg12 (by decide)).trans (a1_12 m ρ c)
theorem a2_13 : W2 m ρ c (Proc.devRef .tc main_arg13) = m ((c : Thread nD τ).loc main_arg13) :=
  (W2_of_ne m ρ c main_arg13 (by decide)).trans (a1_13 m ρ c)
theorem a2_14 : W2 m ρ c (Proc.devRef .tc main_arg14) = m ((c : Thread nD τ).loc main_arg14) :=
  (W2_of_ne m ρ c main_arg14 (by decide)).trans (a1_14 m ρ c)
theorem a2_15 : W2 m ρ c (Proc.devRef .tc main_arg15) = m ((c : Thread nD τ).loc main_arg15) :=
  (W2_of_ne m ρ c main_arg15 (by decide)).trans (a1_15 m ρ c)
theorem a2_16 : W2 m ρ c (Proc.devRef .tc main_arg16) = m ((c : Thread nD τ).loc main_arg16) :=
  (W2_of_ne m ρ c main_arg16 (by decide)).trans (a1_16 m ρ c)
theorem v1_2 : W2 m ρ c (Proc.devRef .tc main_v1) = srcRaw (m ((c : Thread nD τ).loc main_arg1)) :=
  (W2_of_ne m ρ c main_v1 (by decide)).trans (v1_1 m ρ c)
theorem v3_2 : W2 m ρ c (Proc.devRef .tc main_v3) = dstRaw (m ((c : Thread nD τ).loc main_arg1)) :=
  (W2_of_ne m ρ c main_v3 (by decide)).trans (v3_1 m ρ c)
theorem a3_2 : W3 m ρ c (Proc.devRef .tc main_arg2) = m ((c : Thread nD τ).loc main_arg2) := by
  show StableHlo.after hostOps1 (W2 m ρ c) (Proc.devRef .tc main_arg2) = _
  after_results; exact a2_2 m ρ c
theorem a3_7 : W3 m ρ c (Proc.devRef .tc main_arg7) = m ((c : Thread nD τ).loc main_arg7) := by
  show StableHlo.after hostOps1 (W2 m ρ c) (Proc.devRef .tc main_arg7) = _
  after_results; exact a2_7 m ρ c
theorem a3_9 : W3 m ρ c (Proc.devRef .tc main_arg9) = m ((c : Thread nD τ).loc main_arg9) := by
  show StableHlo.after hostOps1 (W2 m ρ c) (Proc.devRef .tc main_arg9) = _
  after_results; exact a2_9 m ρ c
theorem a3_11 : W3 m ρ c (Proc.devRef .tc main_arg11) = m ((c : Thread nD τ).loc main_arg11) := by
  show StableHlo.after hostOps1 (W2 m ρ c) (Proc.devRef .tc main_arg11) = _
  after_results; exact a2_11 m ρ c
theorem a3_12 : W3 m ρ c (Proc.devRef .tc main_arg12) = m ((c : Thread nD τ).loc main_arg12) := by
  show StableHlo.after hostOps1 (W2 m ρ c) (Proc.devRef .tc main_arg12) = _
  after_results; exact a2_12 m ρ c
theorem a3_13 : W3 m ρ c (Proc.devRef .tc main_arg13) = m ((c : Thread nD τ).loc main_arg13) := by
  show StableHlo.after hostOps1 (W2 m ρ c) (Proc.devRef .tc main_arg13) = _
  after_results; exact a2_13 m ρ c
theorem a3_14 : W3 m ρ c (Proc.devRef .tc main_arg14) = m ((c : Thread nD τ).loc main_arg14) := by
  show StableHlo.after hostOps1 (W2 m ρ c) (Proc.devRef .tc main_arg14) = _
  after_results; exact a2_14 m ρ c
theorem a3_15 : W3 m ρ c (Proc.devRef .tc main_arg15) = m ((c : Thread nD τ).loc main_arg15) := by
  show StableHlo.after hostOps1 (W2 m ρ c) (Proc.devRef .tc main_arg15) = _
  after_results; exact a2_15 m ρ c
theorem a3_16 : W3 m ρ c (Proc.devRef .tc main_arg16) = m ((c : Thread nD τ).loc main_arg16) := by
  show StableHlo.after hostOps1 (W2 m ρ c) (Proc.devRef .tc main_arg16) = _
  after_results; exact a2_16 m ρ c
theorem v1_3 : W3 m ρ c (Proc.devRef .tc main_v1) = srcRaw (m ((c : Thread nD τ).loc main_arg1)) := by
  show StableHlo.after hostOps1 (W2 m ρ c) (Proc.devRef .tc main_v1) = _
  after_results; exact v1_2 m ρ c
theorem v3_3 : W3 m ρ c (Proc.devRef .tc main_v3) = dstRaw (m ((c : Thread nD τ).loc main_arg1)) := by
  show StableHlo.after hostOps1 (W2 m ρ c) (Proc.devRef .tc main_v3) = _
  after_results; exact v3_2 m ρ c
theorem a4_2 : W4 m ρ c (Proc.devRef .tc main_arg2) = m ((c : Thread nD τ).loc main_arg2) :=
  (W4_of_ne m ρ c main_arg2 (by decide)).trans (a3_2 m ρ c)
theorem a4_11 : W4 m ρ c (Proc.devRef .tc main_arg11) = m ((c : Thread nD τ).loc main_arg11) :=
  (W4_of_ne m ρ c main_arg11 (by decide)).trans (a3_11 m ρ c)
theorem a4_12 : W4 m ρ c (Proc.devRef .tc main_arg12) = m ((c : Thread nD τ).loc main_arg12) :=
  (W4_of_ne m ρ c main_arg12 (by decide)).trans (a3_12 m ρ c)
theorem a4_13 : W4 m ρ c (Proc.devRef .tc main_arg13) = m ((c : Thread nD τ).loc main_arg13) :=
  (W4_of_ne m ρ c main_arg13 (by decide)).trans (a3_13 m ρ c)
theorem a4_14 : W4 m ρ c (Proc.devRef .tc main_arg14) = m ((c : Thread nD τ).loc main_arg14) :=
  (W4_of_ne m ρ c main_arg14 (by decide)).trans (a3_14 m ρ c)
theorem a4_15 : W4 m ρ c (Proc.devRef .tc main_arg15) = m ((c : Thread nD τ).loc main_arg15) :=
  (W4_of_ne m ρ c main_arg15 (by decide)).trans (a3_15 m ρ c)
theorem a4_16 : W4 m ρ c (Proc.devRef .tc main_arg16) = m ((c : Thread nD τ).loc main_arg16) :=
  (W4_of_ne m ρ c main_arg16 (by decide)).trans (a3_16 m ρ c)
theorem v1_4 : W4 m ρ c (Proc.devRef .tc main_v1) = srcRaw (m ((c : Thread nD τ).loc main_arg1)) :=
  (W4_of_ne m ρ c main_v1 (by decide)).trans (v1_3 m ρ c)
theorem v3_4 : W4 m ρ c (Proc.devRef .tc main_v3) = dstRaw (m ((c : Thread nD τ).loc main_arg1)) :=
  (W4_of_ne m ρ c main_v3 (by decide)).trans (v3_3 m ρ c)
theorem a5_2 : W5 m ρ c (Proc.devRef .tc main_arg2) = m ((c : Thread nD τ).loc main_arg2) := by
  show StableHlo.after hostOps2 (W4 m ρ c) (Proc.devRef .tc main_arg2) = _
  after_results; exact a4_2 m ρ c
theorem a5_11 : W5 m ρ c (Proc.devRef .tc main_arg11) = m ((c : Thread nD τ).loc main_arg11) := by
  show StableHlo.after hostOps2 (W4 m ρ c) (Proc.devRef .tc main_arg11) = _
  after_results; exact a4_11 m ρ c
theorem a5_13 : W5 m ρ c (Proc.devRef .tc main_arg13) = m ((c : Thread nD τ).loc main_arg13) := by
  show StableHlo.after hostOps2 (W4 m ρ c) (Proc.devRef .tc main_arg13) = _
  after_results; exact a4_13 m ρ c
theorem a5_15 : W5 m ρ c (Proc.devRef .tc main_arg15) = m ((c : Thread nD τ).loc main_arg15) := by
  show StableHlo.after hostOps2 (W4 m ρ c) (Proc.devRef .tc main_arg15) = _
  after_results; exact a4_15 m ρ c
theorem a5_16 : W5 m ρ c (Proc.devRef .tc main_arg16) = m ((c : Thread nD τ).loc main_arg16) := by
  show StableHlo.after hostOps2 (W4 m ρ c) (Proc.devRef .tc main_arg16) = _
  after_results; exact a4_16 m ρ c
theorem a6_2 : W6 m ρ c (Proc.devRef .tc main_arg2) = m ((c : Thread nD τ).loc main_arg2) :=
  (W6_of_ne m ρ c main_arg2 (by decide)).trans (a5_2 m ρ c)
theorem a6_15 : W6 m ρ c (Proc.devRef .tc main_arg15) = m ((c : Thread nD τ).loc main_arg15) :=
  (W6_of_ne m ρ c main_arg15 (by decide)).trans (a5_15 m ρ c)
theorem a6_16 : W6 m ρ c (Proc.devRef .tc main_arg16) = m ((c : Thread nD τ).loc main_arg16) :=
  (W6_of_ne m ρ c main_arg16 (by decide)).trans (a5_16 m ρ c)
theorem a7_15 : W7 m ρ c (Proc.devRef .tc main_arg15) = m ((c : Thread nD τ).loc main_arg15) := by
  show StableHlo.after hostOps3 (W6 m ρ c) (Proc.devRef .tc main_arg15) = _
  after_results; exact a6_15 m ρ c

/-! ## The layers' outputs, as functions of the arguments -/

/-- The first layer's output. -/
def H1 : FVec Ideal S50000x64 .f32 :=
  layerK (m ((c : Thread nD τ).loc main_arg0)) (srcRaw (m ((c : Thread nD τ).loc main_arg1))) (dstRaw (m ((c : Thread nD τ).loc main_arg1))) (m ((c : Thread nD τ).loc main_arg3)) (m ((c : Thread nD τ).loc main_arg4)) (m ((c : Thread nD τ).loc main_arg5)) (m ((c : Thread nD τ).loc main_arg6))
/-- The second layer's output. -/
def H2 : FVec Ideal S50000x64 .f32 :=
  layerK (H1 m c) (srcRaw (m ((c : Thread nD τ).loc main_arg1))) (dstRaw (m ((c : Thread nD τ).loc main_arg1))) (m ((c : Thread nD τ).loc main_arg7)) (m ((c : Thread nD τ).loc main_arg8)) (m ((c : Thread nD τ).loc main_arg9)) (m ((c : Thread nD τ).loc main_arg10))
/-- The third layer's output. -/
def H3 : FVec Ideal S50000x64 .f32 :=
  layerK (H2 m c) (srcRaw (m ((c : Thread nD τ).loc main_arg1))) (dstRaw (m ((c : Thread nD τ).loc main_arg1))) (m ((c : Thread nD τ).loc main_arg11)) (m ((c : Thread nD τ).loc main_arg12)) (m ((c : Thread nD τ).loc main_arg13)) (m ((c : Thread nD τ).loc main_arg14))

/-- A bias vector reshaped to one row reads, at column `k`, the vector at `k`. -/
theorem row64 (b : FVec Ideal S64 .f32) : (fun k : Fin 64 => shapeCast S1x64 b shapeCasts_S64_S1x64 (ix2 (0 : Fin 1) k)) = rowOf b :=
  funext fun k => shapeCast_a_1a_apply b shapeCasts_S64_S1x64 0 k
theorem row32 (b : FVec Ideal S32 .f32) : (fun k : Fin 32 => shapeCast S1x32 b shapeCasts_S32_S1x32 (ix2 (0 : Fin 1) k)) = rowOf b :=
  funext fun k => shapeCast_a_1a_apply b shapeCasts_S32_S1x32 0 k

/-! ## The first stretch and the first region -/

set_option maxHeartbeats 2000000 in
theorem v13_1 : W1 m ρ c (Proc.devRef .tc main_v13) = agg (m ((c : Thread nD τ).loc main_arg0)) (srcRaw (m ((c : Thread nD τ).loc main_arg1))) (dstRaw (m ((c : Thread nD τ).loc main_arg1))) := by
  show StableHlo.after hostOps0 (W0 m ρ c) (Proc.devRef .tc main_v13) = _
  after_results_simp; rfl
theorem v14_1 : W1 m ρ c (Proc.devRef .tc main_v14) = shapeCast S1x64 (m ((c : Thread nD τ).loc main_arg4)) shapeCasts_S64_S1x64 := by
  show StableHlo.after hostOps0 (W0 m ρ c) (Proc.devRef .tc main_v14) = _
  after_results; rfl
theorem v15_1 : W1 m ρ c (Proc.devRef .tc main_v15) = shapeCast S1x64 (m ((c : Thread nD τ).loc main_arg6)) shapeCasts_S64_S1x64 := by
  show StableHlo.after hostOps0 (W0 m ρ c) (Proc.devRef .tc main_v15) = _
  after_results; rfl

/-- After the first region its output array is the first layer's output. -/
theorem h1 : W2 m ρ c (Proc.devRef .tc main_v16) = H1 m c := by
  refine (W2_arr m ρ c 6).trans ((KBlk0.final (V1 m ρ) c).trans ?_)
  unfold KBlk0.G H1 layerK
  rw [show V1 m ρ c main_arg0 = _ from a1_0 m ρ c, show V1 m ρ c main_v13 = _ from v13_1 m ρ c,
    show V1 m ρ c main_arg3 = _ from a1_3 m ρ c, show V1 m ρ c main_v14 = _ from v14_1 m ρ c,
    show V1 m ρ c main_arg5 = _ from a1_5 m ρ c, show V1 m ρ c main_v15 = _ from v15_1 m ρ c, row64, row64]

/-! ## The second stretch and the second region -/

theorem h1_3 : W3 m ρ c (Proc.devRef .tc main_v16) = H1 m c := by
  show StableHlo.after hostOps1 (W2 m ρ c) (Proc.devRef .tc main_v16) = _
  after_results; exact h1 m ρ c
set_option maxHeartbeats 2000000 in
theorem v26_3 : W3 m ρ c (Proc.devRef .tc main_v26) = agg (H1 m c) (srcRaw (m ((c : Thread nD τ).loc main_arg1))) (dstRaw (m ((c : Thread nD τ).loc main_arg1))) := by
  show StableHlo.after hostOps1 (W2 m ρ c) (Proc.devRef .tc main_v26) = _
  after_results_simp
  rw [h1 m ρ c, v1_2 m ρ c, v3_2 m ρ c]; rfl
theorem v27_3 : W3 m ρ c (Proc.devRef .tc main_v27) = shapeCast S1x64 (m ((c : Thread nD τ).loc main_arg8)) shapeCasts_S64_S1x64 := by
  show StableHlo.after hostOps1 (W2 m ρ c) (Proc.devRef .tc main_v27) = _
  after_results
  rw [a2_8 m ρ c]; rfl
theorem v28_3 : W3 m ρ c (Proc.devRef .tc main_v28) = shapeCast S1x64 (m ((c : Thread nD τ).loc main_arg10)) shapeCasts_S64_S1x64 := by
  show StableHlo.after hostOps1 (W2 m ρ c) (Proc.devRef .tc main_v28) = _
  after_results
  rw [a2_10 m ρ c]; rfl

/-- After the second region its output array is the second layer's output. -/
theorem h2 : W4 m ρ c (Proc.devRef .tc main_v29) = H2 m c := by
  refine (W4_arr m ρ c 6).trans ((KBlk1.final (V3 m ρ) c).trans ?_)
  unfold KBlk1.G H2 layerK
  rw [show V3 m ρ c main_v16 = _ from h1_3 m ρ c, show V3 m ρ c main_v26 = _ from v26_3 m ρ c,
    show V3 m ρ c main_arg7 = _ from a3_7 m ρ c, show V3 m ρ c main_v27 = _ from v27_3 m ρ c,
    show V3 m ρ c main_arg9 = _ from a3_9 m ρ c, show V3 m ρ c main_v28 = _ from v28_3 m ρ c, row64, row64]

/-! ## The third stretch and the third region -/

theorem h2_5 : W5 m ρ c (Proc.devRef .tc main_v29) = H2 m c := by
  show StableHlo.after hostOps2 (W4 m ρ c) (Proc.devRef .tc main_v29) = _
  after_results; exact h2 m ρ c
set_option maxHeartbeats 2000000 in
theorem v39_5 : W5 m ρ c (Proc.devRef .tc main_v39) = agg (H2 m c) (srcRaw (m ((c : Thread nD τ).loc main_arg1))) (dstRaw (m ((c : Thread nD τ).loc main_arg1))) := by
  show StableHlo.after hostOps2 (W4 m ρ c) (Proc.devRef .tc main_v39) = _
  after_results_simp
  rw [h2 m ρ c, v1_4 m ρ c, v3_4 m ρ c]; rfl
theorem v40_5 : W5 m ρ c (Proc.devRef .tc main_v40) = shapeCast S1x64 (m ((c : Thread nD τ).loc main_arg12)) shapeCasts_S64_S1x64 := by
  show StableHlo.after hostOps2 (W4 m ρ c) (Proc.devRef .tc main_v40) = _
  after_results
  rw [a4_12 m ρ c]; rfl
theorem v41_5 : W5 m ρ c (Proc.devRef .tc main_v41) = shapeCast S1x64 (m ((c : Thread nD τ).loc main_arg14)) shapeCasts_S64_S1x64 := by
  show StableHlo.after hostOps2 (W4 m ρ c) (Proc.devRef .tc main_v41) = _
  after_results
  rw [a4_14 m ρ c]; rfl

/-- After the third region its output array is the third layer's output. -/
theorem h3 : W6 m ρ c (Proc.devRef .tc main_v42) = H3 m c := by
  refine (W6_arr m ρ c 6).trans ((KBlk2.final (V5 m ρ) c).trans ?_)
  unfold KBlk2.G H3 layerK
  rw [show V5 m ρ c main_v29 = _ from h2_5 m ρ c, show V5 m ρ c main_v39 = _ from v39_5 m ρ c,
    show V5 m ρ c main_arg11 = _ from a5_11 m ρ c, show V5 m ρ c main_v40 = _ from v40_5 m ρ c,
    show V5 m ρ c main_arg13 = _ from a5_13 m ρ c, show V5 m ρ c main_v41 = _ from v41_5 m ρ c, row64, row64]

/-! ## The last stretch and the pooling region -/

set_option maxHeartbeats 2000000 in
theorem v45_7 : W7 m ρ c (Proc.devRef .tc main_v45) = pool (H3 m c) (m ((c : Thread nD τ).loc main_arg2)) := by
  show StableHlo.after hostOps3 (W6 m ρ c) (Proc.devRef .tc main_v45) = _
  after_results_simp
  rw [h3 m ρ c, a6_2 m ρ c]; rfl
theorem v46_7 : W7 m ρ c (Proc.devRef .tc main_v46) = shapeCast S1x32 (m ((c : Thread nD τ).loc main_arg16)) shapeCasts_S32_S1x32 := by
  show StableHlo.after hostOps3 (W6 m ρ c) (Proc.devRef .tc main_v46) = _
  after_results
  rw [a6_16 m ρ c]; rfl

/-- THE RESULT: after the last region the result's buffer holds the network's function of the arguments. -/
theorem result : W8 m ρ c (Proc.devRef .tc main_v47)
    = netG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W8_arr m ρ c 3).trans ((KBlk3.final (V7 m ρ) c).trans ?_)
  unfold KBlk3.G
  rw [show V7 m ρ c main_v45 = _ from v45_7 m ρ c, show V7 m ρ c main_arg15 = _ from a7_15 m ρ c,
    show V7 m ρ c main_v46 = _ from v46_7 m ρ c, row32]
  rfl

end Cert.KernelIdeal.KChain

end
-- ==== Proof.Ref.lean ====
/-
  The reference's result as the same network.

  The reference's @main is one straight line of host operations; its result is those operations' composed term of
  the arguments. Grouped, that term is three layers, the pooling and the last linear map, each layer spelled
  `maximum (dot (maximum (dot (h + agg h) wa + ba) 0) wb + bb) 0` with the biases broadcast from vectors. Read at
  an index: a `dot_general` contracting the left operand's columns with the right operand's rows is the sum of
  products over the 64 contracted positions, a vector broadcast along the rows reads the vector at the column, the
  zero splat reads the f32 zero word. So each reference layer is `layerG` of `h` and its neighbour sum, the same
  function the kernel's regions leave, and the gathers and scatters are the same operations on both sides.
-/
import proofs.«138408_j7481833030168_1_alg».proof.Proof.Gen.ReferenceIdeal.Run
import proofs.«138408_j7481833030168_1_alg».proof.Proof.Gen.ReferenceIdeal.Read
import proofs.«138408_j7481833030168_1_alg».proof.Proof.Net
import Idealize.ShloMosaic.PureOps.Ideal.Laws
import Idealize.ShloMosaic.Lib.ValueIdx
import Idealize.ShloMosaic.Lib.Pipeline.Value

set_option maxRecDepth 16384

noncomputable section

namespace Cert.ReferenceIdeal.RefNet

open Cert.ReferenceIdeal Cert.ReferenceIdeal.Gen Cert.GinSpec
open Idealize.ShloMosaic Idealize.ShloMosaic.TcCoe Idealize.SL.Sem Idealize.ShloMosaic.ValueIdx

abbrev dR := dot_S50000x64_S64x64_S50000x64_1_0_0_1_n_n
abbrev dQ := dot_S512x64_S64x32_S512x32_1_0_0_1_n_n

/-! ## The reference's operations, grouped -/

/-- The edge list's source row, as the reference spells it. -/
def refSrc (e : IVec S2x800000 32) : IVec S800000 32 :=
  shapeCast _ (extractStridedSlice S1x800000 ![0, 0] e slices_S2x800000_S1x800000_0_0) shapeCasts_S1x800000_S800000

/-- The neighbour sum, as the reference spells it. -/
def refAgg (h : FVec Ideal S50000x64 .f32) (e : IVec S2x800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0
      (shapeCast _ (extractStridedSlice S1x800000 ![1, 0] e slices_S2x800000_S1x800000_1_0) shapeCasts_S1x800000_S800000))
    (Host.gather gather_S50000x64_S800000x1_S800000x64_1_0_n_n_0_1_164 h
      (broadcastInDim S800000x1 ![0] bcast_S800000_S800000x1_0
        (select (cmpi .slt (refSrc e) (broadcastInDim S800000 ![] bcast_S_S800000 (constantI S_ 32 0#32)))
          (addi (refSrc e) (broadcastInDim S800000 ![] bcast_S_S800000 (constantI S_ 32 50000#32))) (refSrc e))))

/-- One dense layer and the rectifier, as the reference spells it. -/
def refDense (L : FVec Ideal S50000x64 .f32) (w : FVec Ideal S64x64 .f32) (b : FVec Ideal S64 .f32) : FVec Ideal S50000x64 .f32 :=
  maximumf (addf (Host.dotGeneral dR none L w)
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- One GIN layer, as the reference spells it. -/
def refLayer (h : FVec Ideal S50000x64 .f32) (e : IVec S2x800000 32) (wa : FVec Ideal S64x64 .f32) (ba : FVec Ideal S64 .f32)
    (wb : FVec Ideal S64x64 .f32) (bb : FVec Ideal S64 .f32) : FVec Ideal S50000x64 .f32 :=
  refDense (refDense (addf h (refAgg h e)) wa ba) wb bb

/-- The pooling and the last linear map, as the reference spells them. -/
def refTail (h : FVec Ideal S50000x64 .f32) (b : IVec S50000 32) (lw : FVec Ideal S64x32 .f32) (lb : FVec Ideal S32 .f32) : FVec Ideal S512x32 .f32 :=
  addf (Host.dotGeneral dQ none
      (Host.scatterAdd scatter_S512x64_S50000x1_S50000x64_1_0_0_1 (broadcastInDim S512x64 ![] bcast_S_S512x64 (constant S_ .f32 0x00000000#32))
        (broadcastInDim S50000x1 ![0] bcast_S50000_S50000x1_0 b) h) lw)
    (broadcastInDim S512x32 ![0, 1] bcast_S1x32_S512x32_0_1 (broadcastInDim S1x32 ![1] bcast_S32_S1x32_1 lb))

variable (m : (ℓ : Loc nD τ sig) → Buf (Elt Ideal) ℓ) (c : Dev nD)

set_option maxRecDepth 65536 in
/-- The run's composed term, grouped: three layers, the pooling, the last linear map. -/
theorem res_grouped : Cert.ReferenceIdeal.Value.res_main_v79 (F := Ideal) m c
    = refTail (refLayer (refLayer (refLayer (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5)) (m ((c.tc : Thread nD τ).loc main_arg6)))
        (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)))
        (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14)))
      (m ((c.tc : Thread nD τ).loc main_arg2)) (m ((c.tc : Thread nD τ).loc main_arg15)) (m ((c.tc : Thread nD τ).loc main_arg16)) := by
  unfold Cert.ReferenceIdeal.Value.res_main_v79
  rfl

/-! ## The operations read at an index -/

/-- A bias vector broadcast along the rows reads, at `(r, k)`, the vector at `k`. -/
theorem bias64_apply (b : FVec Ideal S64 .f32) (r : Fin 50000) (k : Fin 64) :
    broadcastInDim S50000x64 ![0, 1] bcast_S1x64_S50000x64_0_1 (broadcastInDim S1x64 ![1] bcast_S64_S1x64_1 b) (ix2 r k) = b (ix1 k) := by
  refine (broadcastInDim_apply _ bcast_S1x64_S50000x64_0_1 _ (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])).trans ?_
  exact broadcastInDim_apply _ bcast_S64_S1x64_1 b (ix2 (0 : Fin 1) k) (ix1 k) (fun a => match a with
    | ⟨0, _⟩ => by show k.val = if (64 : Nat) = 1 then 0 else k.val; rw [if_neg (by decide)])

theorem bias32_apply (b : FVec Ideal S32 .f32) (r : Fin 512) (k : Fin 32) :
    broadcastInDim S512x32 ![0, 1] bcast_S1x32_S512x32_0_1 (broadcastInDim S1x32 ![1] bcast_S32_S1x32_1 b) (ix2 r k) = b (ix1 k) := by
  refine (broadcastInDim_apply _ bcast_S1x32_S512x32_0_1 _ (ix2 r k) (ix2 (0 : Fin 1) k) (fun a => match a with
    | ⟨0, _⟩ => by show 0 = if (1 : Nat) = 1 then 0 else r.val; rw [if_pos rfl]
    | ⟨1, _⟩ => by show k.val = if (32 : Nat) = 1 then 0 else k.val; rw [if_neg (by decide)])).trans ?_
  exact broadcastInDim_apply _ bcast_S32_S1x32_1 b (ix2 (0 : Fin 1) k) (ix1 k) (fun a => match a with
    | ⟨0, _⟩ => by show k.val = if (32 : Nat) = 1 then 0 else k.val; rw [if_neg (by decide)])

/-- The zero splat reads the f32 zero word everywhere. -/
theorem zero_apply (i : S50000x64.Idx) :
    broadcastInDim S50000x64 ![] bcast_S_S50000x64 (constant (F := Ideal) S_ .f32 0x00000000#32) i = zeroW :=
  broadcastInDim_apply _ bcast_S_S50000x64 _ i ix0 (fun a => a.elim0)

/-- The layer-sized product at `(r, c)`: the sum over the 64 contracted positions. -/
theorem dotR_apply (l : FVec Ideal S50000x64 .f32) (w : FVec Ideal S64x64 .f32) (r : Fin 50000) (c : Fin 64) :
    Host.dotGeneral dR none l w (ix2 r c) = ∑ k : Fin 64, l (ix2 r k) * w (ix2 k c) := by
  simp only [Host.dotGeneral]
  refine (Ideal.dotGeneral_apply dR none _ l w (ix2 r c)).trans ?_
  exact dot_sum dR rfl rfl Cert.ReferenceIdeal.Read.lhs_main_v15_0 Cert.ReferenceIdeal.Read.lhs_main_v15_1
    Cert.ReferenceIdeal.Read.rhs_main_v15_0 Cert.ReferenceIdeal.Read.rhs_main_v15_1 l w r c

/-- The pooled product at `(r, c)`. -/
theorem dotQ_apply (l : FVec Ideal S512x64 .f32) (w : FVec Ideal S64x32 .f32) (r : Fin 512) (c : Fin 32) :
    Host.dotGeneral dQ none l w (ix2 r c) = ∑ k : Fin 64, l (ix2 r k) * w (ix2 k c) := by
  simp only [Host.dotGeneral]
  refine (Ideal.dotGeneral_apply dQ none _ l w (ix2 r c)).trans ?_
  exact dot_sum dQ rfl rfl Cert.ReferenceIdeal.Read.lhs_main_v76_0 Cert.ReferenceIdeal.Read.lhs_main_v76_1
    Cert.ReferenceIdeal.Read.rhs_main_v76_0 Cert.ReferenceIdeal.Read.rhs_main_v76_1 l w r c

/-- One reference dense layer at `(r, c)`: `denseRelu` of the left factor's row. -/
theorem refDense_apply (L : FVec Ideal S50000x64 .f32) (w : FVec Ideal S64x64 .f32) (b : FVec Ideal S64 .f32)
    (r : Fin 50000) (c : Fin 64) (lrow : Fin 64 → EReal) (hL : ∀ k, L (ix2 r k) = lrow k) :
    refDense L w b (ix2 r c) = denseRelu lrow (fun j k => w (ix2 j k)) (Cert.KernelIdeal.Net.rowOf b) c := by
  unfold refDense denseRelu Cert.KernelIdeal.Net.rowOf
  refine (maximumf_apply _ _ _).trans ?_
  refine congrArg₂ (fun a b : EReal => max a b) ?_ (zero_apply _)
  refine (addf_apply _ _ _).trans ?_
  refine congrArg₂ (fun a b : EReal => a + b) ?_ (bias64_apply b r c)
  refine (dotR_apply L w r c).trans ?_
  exact Finset.sum_congr rfl fun k _ => congrArg₂ (fun a b : EReal => a * b) (hL k) rfl

/-! ## The reference's groups are the network's functions -/

/-- The reference's neighbour sum is the kernel program's: the same operations. -/
theorem refAgg_eq (h : FVec Ideal S50000x64 .f32) (e : IVec S2x800000 32) :
    refAgg h e = Cert.KernelIdeal.Net.agg h (Cert.KernelIdeal.Net.srcRaw e) (Cert.KernelIdeal.Net.dstRaw e) := rfl

/-- A reference layer is `layerK`. -/
theorem refLayer_eq (h : FVec Ideal S50000x64 .f32) (e : IVec S2x800000 32) (wa : FVec Ideal S64x64 .f32) (ba : FVec Ideal S64 .f32)
    (wb : FVec Ideal S64x64 .f32) (bb : FVec Ideal S64 .f32) :
    refLayer h e wa ba wb bb
      = Cert.KernelIdeal.Net.layerK h (Cert.KernelIdeal.Net.srcRaw e) (Cert.KernelIdeal.Net.dstRaw e) wa ba wb bb := by
  unfold refLayer Cert.KernelIdeal.Net.layerK layerG mlpRow
  rw [← refAgg_eq]
  funext i
  obtain ⟨r, q, rfl⟩ : ∃ (r : Fin 50000) (q : Fin 64), i = ix2 r q := ⟨i 0, i 1, eq_ix2 i⟩
  exact refDense_apply _ wb bb r q _ fun k => refDense_apply _ wa ba r k _ fun j => addf_apply _ _ _

/-- The reference's pooling and last linear map are the network's. -/
theorem refTail_eq (h : FVec Ideal S50000x64 .f32) (b : IVec S50000 32) (lw : FVec Ideal S64x32 .f32) (lb : FVec Ideal S32 .f32) :
    refTail h b lw lb = linG (Cert.KernelIdeal.Net.pool h b) lw (Cert.KernelIdeal.Net.rowOf lb) := by
  unfold refTail linG linRow Cert.KernelIdeal.Net.rowOf
  funext i
  obtain ⟨r, q, rfl⟩ : ∃ (r : Fin 512) (q : Fin 32), i = ix2 r q := ⟨i 0, i 1, eq_ix2 i⟩
  refine (addf_apply _ _ _).trans ?_
  refine congrArg₂ (fun a b : EReal => a + b) ?_ (bias32_apply lb r q)
  exact dotQ_apply _ lw r q

/-- THE REFERENCE'S RESULT is the network's function of the arguments. -/
theorem result : Cert.ReferenceIdeal.Value.res_main_v79 (F := Ideal) m c
    = Cert.KernelIdeal.Net.netG (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) := by
  rw [res_grouped, refLayer_eq, refLayer_eq, refLayer_eq, refTail_eq]
  rfl

end Cert.ReferenceIdeal.RefNet

end
-- ==== Proof.lean ====
/-
  A three-layer GIN network with sum pooling and a final linear map: the Pallas program against its jnp reference,
  equal on the extended reals.

  Both programs build each layer's neighbour sum on the host with the same gather and scatter-add, and both pool
  with the same scatter-add. They differ in where the dense part runs: the kernel program runs
  `relu (relu ((h + agg) · wa + ba) · wb + bb)` in a pallas_call over ten blocks of 5000 node rows (rounding the
  matrix products' operands to bf16, which is the identity on the extended reals) and the last `pooled · lw + lb` in
  a one-point pallas_call; the reference runs them as host `dot_general`s. A matrix product is the same finite sum of
  products on both sides and a row of the output depends only on the same row of the inputs, so blocking the rows
  changes nothing: both results are `Net.netG` of the arguments. No law that could fail at an infinity is used
  (only sums, products and maxima of the same terms in the same order), so the finiteness of the inputs is never
  opened.

  The frames of the two kernel programs are the generated ones; the reference's frame is its generated run with
  the result dropped. The idealization rewrote nothing, so `preserves` is `True`.
-/
import proofs.«138408_j7481833030168_1_alg».proof.Defs
import proofs.«138408_j7481833030168_1_alg».proof.Proof.Gen.Kernel
import proofs.«138408_j7481833030168_1_alg».proof.Proof.Gen.Kernel.Frame
import proofs.«138408_j7481833030168_1_alg».proof.Proof.Gen.KernelIdeal
import proofs.«138408_j7481833030168_1_alg».proof.Proof.Gen.KernelIdeal.Frame
import proofs.«138408_j7481833030168_1_alg».proof.Proof.Gen.ReferenceIdeal
import proofs.«138408_j7481833030168_1_alg».proof.Proof.Gen.ReferenceIdeal.Run
import proofs.«138408_j7481833030168_1_alg».proof.Proof.Gen.ReferenceIdeal.Read
import proofs.«138408_j7481833030168_1_alg».proof.Proof.Gen.Pre_finite_inputs
import proofs.«138408_j7481833030168_1_alg».proof.Proof.KRun
import proofs.«138408_j7481833030168_1_alg».proof.Proof.KChain
import proofs.«138408_j7481833030168_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network's function of the arguments, and the arguments agree. -/
theorem algebraic : Cert.algebraic_KernelIdeal_ReferenceIdeal := by
  intro m ρ m' ρ' _ hagree
  refine ⟨fun c => Cert.KernelIdeal.Net.netG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.KChain.result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.RefNet.result m' c, e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
